-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x64 : Shape := ⟨2, ![2048, 64]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S64x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  transposes_S8192x64_S64x8192_1_0 : S8192x64.Transposes [1, 0] S64x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.GaussianSpec.lean ====
/-
  The Gaussian (RBF) similarity matrix of two families of 8192 points in 64 dimensions, over the extended reals:

      S[i, j] = exp (-(|a_i|² + |b_j|² - 2 ⟨a_i, b_j⟩))   (= exp (-|a_i - b_j|²) where everything is finite)

  written index by index exactly as both programs compute it: each squared length is a sum of 64 squares started
  from the zero word, the inner product a sum of 64 products, and the three are combined as
  `(|a_i|² + |b_j|²) - 2 · ⟨a_i, b_j⟩` before the sign change and the exponential.  No algebra is applied to the
  expansion, so nothing here needs the entries to be finite: the two programs differ only in WHERE these sums are
  taken (per block of the grid or over whole arrays), never in their order or grouping.
-/
import Idealize.ShloMosaic.PureOps.Ideal
import Idealize.ShloMosaic.PureOps.Ideal.Laws
import Idealize.ShloMosaic.Lib.ValueIdx

noncomputable section

namespace Cert.Gaussian

open Idealize.ShloMosaic Idealize.ShloMosaic.ValueIdx
open scoped BigOperators

/-- A family of 8192 points of ℝ̄⁶⁴, one per row. -/
abbrev Points : Type := (⟨2, ![8192, 64]⟩ : Shape).Idx → EReal

/-- An 8192 × 8192 matrix of extended reals. -/
abbrev Gram : Type := (⟨2, ![8192, 8192]⟩ : Shape).Idx → EReal

/-- The word of the float `0.0`, the start of every sum of squares. -/
abbrev zeroW : EReal := Ideal.ofBits .f32 0x00000000#32
/-- The word of the float `2.0`, the factor of the inner product. -/
abbrev twoW : EReal := Ideal.ofBits .f32 0x40000000#32
/-- The word of the float `-1.0`, the sign change under the exponential. -/
abbrev negOneW : EReal := Ideal.ofBits .f32 0xBF800000#32

/-- The squared length of point `r`: the sum of the squares of its 64 coordinates, from the zero word. -/
def sqLen (a : Points) (r : Fin 8192) : EReal :=
  zeroW + ∑ k : Fin 64, a (ix2 r k) * a (ix2 r k)

/-- The inner product of point `r` of `a` with point `s` of `b`. -/
def inner (a b : Points) (r s : Fin 8192) : EReal :=
  ∑ k : Fin 64, a (ix2 r k) * b (ix2 s k)

/-- The exponent's argument from the three scalars: `-1 · ((p + q) - 2 · d)`. -/
def negSqDist (p q d : EReal) : EReal := negOneW * ((p + q) - twoW * d)

/-- The similarity matrix: entry `(i, j)` is `exp (-(|a_i|² + |b_j|² - 2 ⟨a_i, b_j⟩))`. -/
def gauss (a b : Points) : Gram := fun i =>
  Ideal.exp (negSqDist (sqLen a (i 0)) (sqLen b (i 1)) (inner a b (i 0) (i 1)))

/-- The entry at explicit coordinates. -/
theorem gauss_ix2 (a b : Points) (r s : Fin 8192) :
    gauss a b (ix2 r s) = Ideal.exp (negSqDist (sqLen a r) (sqLen b s) (inner a b r s)) := rfl

end Cert.Gaussian

end
-- ==== Proof.ReferenceValue.lean ====
/-
  The reference program's result is the similarity matrix `Cert.Gaussian.gauss` of its two arguments.

  Read one operation at a time, entry `(i, j)` of the reference is the host exponential of `-1` times
  `(|a_i|² + |b_j|²) - 2 · ⟨a_i, b_j⟩`: the two squared lengths are host sums over the 64 coordinates of a row, each
  broadcast along the other axis, and the inner product is the host's matrix product of `a` with the transpose of
  `b`, whose entry `(k, j)` is `b[j, k]`.  The composed index maps of these layout operations are the coordinate
  pairs `(i, k)` and `(j, k)` of the specification; after that the two sides are the same expression.
-/
import proofs.«108575_j7327214207092_2_alg».proof.Proof.Gen.ReferenceIdeal.Read
import proofs.«108575_j7327214207092_2_alg».proof.Proof.GaussianSpec

noncomputable section

namespace Cert.Gaussian.Reference

open Idealize.ShloMosaic Idealize.ShloMosaic.ValueIdx
open Cert.ReferenceIdeal Cert.ReferenceIdeal.Gen Cert.ReferenceIdeal.Read
open scoped BigOperators

/-- Row `i` of the first argument, coordinate `k`: where the first squared length reads its operand. -/
theorem idx_sq0 (i : S8192x8192.Idx) (k : Fin 64) :
    idx_main_v1 (idx_main_v2 (idx_main_v8 i)) k = ix2 (i 0) k :=
  funext fun a => Fin.ext (by match a with | ⟨0, _⟩ => rfl | ⟨1, _⟩ => rfl)

/-- Row `j` of the second argument, coordinate `k`: where the second squared length reads its operand. -/
theorem idx_sq1 (i : S8192x8192.Idx) (k : Fin 64) :
    idx_main_v4 (idx_main_v5 (idx_main_v9 i)) k = ix2 (i 1) k :=
  funext fun a => Fin.ext (by match a with | ⟨0, _⟩ => rfl | ⟨1, _⟩ => rfl)

/-- The matrix product's left factor at `(i, j)`, `k`: row `i` of the first argument. -/
theorem idx_lhs (i : S8192x8192.Idx) (k : Fin 64) : lidx_main_v7 i k = ix2 (i 0) k :=
  funext fun a => Fin.ext (by match a with | ⟨0, _⟩ => rfl | ⟨1, _⟩ => rfl)

/-- Its right factor, read through the transpose: row `j` of the second argument. -/
theorem idx_rhs (i : S8192x8192.Idx) (k : Fin 64) : idx_main_v6 (ridx_main_v7 i k) = ix2 (i 1) k :=
  funext fun a => Fin.ext (by match a with | ⟨0, _⟩ => rfl | ⟨1, _⟩ => rfl)

/-- The reference's last stage is the similarity matrix of its arguments. -/
theorem result_eq (a b : Points) : val_main_v16 (F := Ideal) a b = gauss a b := by
  funext i
  rw [val_main_v16_apply, val_main_v15_apply, val_main_v14_apply, val_main_cst_2_apply, val_main_v13_apply,
    val_main_v10_apply, val_main_v8_apply, val_main_v2_apply, val_main_v1_apply, val_main_v9_apply,
    val_main_v5_apply, val_main_v4_apply, val_main_v12_apply, val_main_v11_apply, val_main_cst_1_apply,
    val_main_v7_apply]
  simp only [val_main_v0_apply, val_main_v3_apply, val_main_v6_apply, val_main_cst_apply, val_main_cst_0_apply,
    idx_sq0, idx_sq1, idx_lhs, idx_rhs]
  rfl

end Cert.Gaussian.Reference

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel body stores, entry by entry.

  At one grid point the body holds four loaded blocks: 2048 points `u` of the first family, 2048 points `v` of the
  second (each a row of 64 coordinates), a column `n` of 2048 numbers and a row `n'` of 2048 numbers.  It stores
  the 2048 × 2048 block whose entry `(p, q)` is

      exp (-1 · ((n[p] + n'[q]) - 2 · Σ_k u[p, k] · v[q, k])):

  the matrix unit contracts the two blocks over their LAST axes into a zero accumulator, which at the ideal values
  is the plain sum of the 64 products; the column is repeated across the columns and the row down the rows; the
  rest is pointwise.
-/
import proofs.«108575_j7327214207092_2_alg».proof.Proof.Gen.KernelIdeal.Skeleton
import proofs.«108575_j7327214207092_2_alg».proof.Proof.GaussianSpec
import proofs.«108575_j7327214207092_2_alg».proof.Proof.LibColumnBroadcast
import Idealize.ShloMosaic.Lib.Pipeline.Value
import Idealize.ShloMosaic.Lib.ValueLayout
import Idealize.ShloMosaic.PureOps.Ideal.Laws

noncomputable section

namespace Cert.Gaussian.Body

open Idealize.ShloMosaic Idealize.ShloMosaic.ValueIdx
open Cert.KernelIdeal Cert.KernelIdeal.Gen
open scoped BigOperators

/-- The contraction of the body's matrix product: both operands over their last axis, no batch axis. -/
abbrev dims : DotDims S2048x64 S2048x64 S2048x2048 := dot_S2048x64_S2048x64_S2048x2048_1_1_0_0_n_n

/-- The left operand is read at row `i 0` … -/
theorem lhs_row (i : S2048x2048.Idx) (q : dims.contr.Idx) : (dims.lhsIdx i q 0).val = (i 0).val := by
  unfold DotDims.lhsIdx
  rw [dif_neg (show ¬(0 : Fin S2048x64.rank) ∈ dims.lhsBatch by decide),
    dif_pos (show (0 : Fin S2048x64.rank) ∈ dims.lhsNonContracting by decide)]
  rfl
/-- … and at the contracted coordinate; -/
theorem lhs_col (i : S2048x2048.Idx) (q : dims.contr.Idx) : (dims.lhsIdx i q 1).val = (q ⟨0, by decide⟩).val :=
  dims.lhsIdx_val_of_single rfl i q
/-- the right operand at row `i 1` — the output's COLUMN picks a row of the second block — … -/
theorem rhs_row (i : S2048x2048.Idx) (q : dims.contr.Idx) : (dims.rhsIdx i q 0).val = (i 1).val := by
  unfold DotDims.rhsIdx
  rw [dif_neg (show ¬(0 : Fin S2048x64.rank) ∈ dims.rhsBatch by decide),
    dif_pos (show (0 : Fin S2048x64.rank) ∈ dims.rhsNonContracting by decide)]
  rfl
/-- … and at the contracted coordinate. -/
theorem rhs_col (i : S2048x2048.Idx) (q : dims.contr.Idx) : (dims.rhsIdx i q 1).val = (q ⟨0, by decide⟩).val :=
  dims.rhsIdx_val_of_single rfl i q

/-- The matrix product into the zero accumulator, at `(p, q)`: the inner product of row `p` of the first block
    with row `q` of the second. -/
theorem matmul_apply (u v : Vec Ideal S2048x64 .f32) (p q : Fin 2048) :
    matmul (F := Ideal) (φ₁ := .f32) (φ₂ := .f32) dims none u v (constant S2048x2048 .f32 0x00000000#32) (ix2 p q)
      = ∑ k : Fin 64, u (ix2 p k) * v (ix2 q k) := by
  simp only [matmul]
  rw [Ideal.matmul_constant_zero_apply, ← Equiv.sum_comp (contrEquiv1 dims 64 rfl rfl).symm]
  refine Finset.sum_congr rfl fun k _ => ?_
  have hk := contrEquiv1_symm_val dims 64 rfl rfl k
  have el : dims.lhsIdx (ix2 p q) ((contrEquiv1 dims 64 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 64 rfl rfl).symm k) = ix2 q k := funext fun a => Fin.ext (by
    match a with
    | ⟨0, _⟩ => exact rhs_row _ _
    | ⟨1, _⟩ => exact (rhs_col _ _).trans hk)
  rw [el, er]

/-- THE STORED BLOCK at `(p, q)`, from the four loaded blocks. -/
theorem payload_apply (u v : Vec Ideal S2048x64 .f32) (n : Vec Ideal S2048x1 .f32) (n' : Vec Ideal S1x2048 .f32)
    (p q : Fin 2048) :
    k0_pay1 (F := Ideal) u v n n' (ix2 p q)
      = Ideal.exp (negSqDist (n (ix2 p (0 : Fin 1))) (n' (ix2 (0 : Fin 1) q)) (∑ k : Fin 64, u (ix2 p k) * v (ix2 q k))) := by
  unfold k0_pay1
  show Ideal.exp (negOneW * ((broadcastTo S2048x2048 (shapeCast S2048x1 n shapeCasts_S2048x1_S2048x1) broadcasts_S2048x1_S2048x2048 (ix2 p q)
      + broadcastTo S2048x2048 (shapeCast S1x2048 n' shapeCasts_S1x2048_S1x2048) broadcasts_S1x2048_S2048x2048 (ix2 p q))
      - twoW * matmul (F := Ideal) (φ₁ := .f32) (φ₂ := .f32) dims none u v (constant S2048x2048 .f32 0x00000000#32) (ix2 p q))) = _
  rw [shapeCast_self, shapeCast_self, broadcastTo_a1_ab_apply, broadcastTo_1b_ab_apply, matmul_apply]
  rfl

/-- So, when the four blocks hold the data of points `r` (first family) and `s` (second family) at local
    positions `p` and `q` — their coordinates and their squared lengths — the stored entry `(p, q)` is entry
    `(r, s)` of the similarity matrix. -/
theorem entry_eq (u v : Vec Ideal S2048x64 .f32) (n : Vec Ideal S2048x1 .f32) (n' : Vec Ideal S1x2048 .f32)
    (a b : Points) (p q : Fin 2048) (r s : Fin 8192)
    (hn : n (ix2 p (0 : Fin 1)) = sqLen a r) (hn' : n' (ix2 (0 : Fin 1) q) = sqLen b s)
    (hu : ∀ k : Fin 64, u (ix2 p k) = a (ix2 r k)) (hv : ∀ k : Fin 64, v (ix2 q k) = b (ix2 s k)) :
    k0_pay1 (F := Ideal) u v n n' (ix2 p q) = gauss a b (ix2 r s) := by
  rw [payload_apply, gauss_ix2, hn, hn']
  unfold inner
  exact congrArg (fun d => Ideal.exp (negSqDist (sqLen a r) (sqLen b s) d))
    (Finset.sum_congr rfl fun k _ => by rw [hu k, hv k])

end Cert.Gaussian.Body

end
-- ==== Proof.HostNorms.lean ====
/-
  The squared lengths the kernel is handed.

  Before the grid runs, the host computes `|a_r|²` for every point of the first family as a column (a sum over the
  64 coordinates of row `r`, started from the zero word, then given a trailing unit axis) and `|b_s|²` for the
  second family as a row (the same column, transposed).  Read at an index, entry `(r, 0)` of the column and entry
  `(0, s)` of the row are the specification's `sqLen`.
-/
import proofs.«108575_j7327214207092_2_alg».proof.Proof.Gen.KernelIdeal.Frame
import proofs.«108575_j7327214207092_2_alg».proof.Proof.GaussianSpec
import Idealize.ShloMosaic.Lib.StableHlo.Run
import Idealize.ShloMosaic.Lib.Pipeline.Value
import Idealize.ShloMosaic.Lib.ValueLayout
import Idealize.ShloMosaic.PureOps.Ideal.Laws

noncomputable section

namespace Cert.Gaussian.Norms

open Idealize.ShloMosaic Idealize.ShloMosaic.TcCoe Idealize.ShloMosaic.ValueIdx Idealize.SL.Sem Idealize.ShloMosaic.StableHlo
open Cert.KernelIdeal Cert.KernelIdeal.Gen
open scoped BigOperators

variable (m : (ℓ : Loc nD τ sig) → Buf (Elt Ideal) ℓ)

/-- The host's sum of squares along the rows, at row `r`: `0 + Σ_k a[r, k]²`. -/
theorem sqSum_apply (a : Points) (r : Fin 8192) :
    Host.reduceAdd (F := Ideal) (φ := .f32) (mulf a a) (constant S_ .f32 0x00000000#32) reducesTo_S8192x64_S8192_d1 h_S_ (ix1 r)
      = sqLen a r := by
  have hR : S8192x64.Reduces [1] S8192 := by decide
  have e : ∀ k : Fin 64, hR.lift (ix1 r) k = ix2 r k := fun k =>
    funext fun d => Fin.ext (by match d with | ⟨0, _⟩ => rfl | ⟨1, _⟩ => rfl)
  simp only [Host.reduceAdd, Ideal.hostReduceAdd_def]
  rw [Ideal.hostReduceAdd_single reducesTo_S8192x64_S8192_d1 hR]
  refine congrArg (zeroW + ·) (Finset.sum_congr rfl fun k _ => ?_)
  show a (hR.lift (ix1 r) k) * a (hR.lift (ix1 r) k) = a (ix2 r k) * a (ix2 r k)
  rw [e k]

/-- The column of squared lengths of the first family, as the grid finds it. -/
theorem sqCol_apply (c : Dev nD) (r : Fin 8192) :
    (V m c main_v2 : S8192x1.Idx → EReal) (ix2 r (0 : Fin 1)) = sqLen (m ((c : Thread nD τ).loc main_arg0)) r := by
  have e : (V m c main_v2 : S8192x1.Idx → EReal)
      = broadcastInDim S8192x1 ![0] bcast_S8192_S8192x1_0
          (Host.reduceAdd (F := Ideal) (φ := .f32) (mulf (m ((c : Thread nD τ).loc main_arg0)) (m ((c : Thread nD τ).loc main_arg0)))
            (constant S_ .f32 0x00000000#32) reducesTo_S8192x64_S8192_d1 h_S_) := by
    dsimp only [V, hostOps0]; after_results
  rw [e, broadcastInDim_apply _ bcast_S8192_S8192x1_0 _ (ix2 r (0 : Fin 1)) (ix1 r) (fun d => match d with
    | ⟨0, _⟩ => by show r.val = if (8192 : Nat) = 1 then 0 else r.val; rw [if_neg (by decide)])]
  exact sqSum_apply _ r

/-- The row of squared lengths of the second family, as the grid finds it. -/
theorem sqRow_apply (c : Dev nD) (s : Fin 8192) :
    (V m c main_v6 : S1x8192.Idx → EReal) (ix2 (0 : Fin 1) s) = sqLen (m ((c : Thread nD τ).loc main_arg1)) s := by
  have e : (V m c main_v6 : S1x8192.Idx → EReal)
      = transpose S1x8192 [1, 0] (broadcastInDim S8192x1 ![0] bcast_S8192_S8192x1_0
          (Host.reduceAdd (F := Ideal) (φ := .f32) (mulf (m ((c : Thread nD τ).loc main_arg1)) (m ((c : Thread nD τ).loc main_arg1)))
            (constant S_ .f32 0x00000000#32) reducesTo_S8192x64_S8192_d1 h_S_)) transposes_S8192x1_S1x8192_1_0 := by
    dsimp only [V, hostOps0]; after_results
  rw [e, transpose_ix2_apply, broadcastInDim_apply _ bcast_S8192_S8192x1_0 _ (ix2 s (0 : Fin 1)) (ix1 s) (fun d => match d with
    | ⟨0, _⟩ => by show s.val = if (8192 : Nat) = 1 then 0 else s.val; rw [if_neg (by decide)])]
  exact sqSum_apply _ s

end Cert.Gaussian.Norms

end
-- ==== Proof.Blocks.lean ====
/-
  From the blocks to the whole matrix.

  The grid has 4 × 4 points; point `(I, J)` is handed rows `2048·I …` of the first family, rows `2048·J …` of
  the second, the matching 2048 entries of the column and of the row of squared lengths, and writes back block
  `(I, J)` of the 8192 × 8192 result.  So local entry `(p, q)` of what it writes is the similarity of points
  `2048·I + p` and `2048·J + q`: block `(I, J)` of the one matrix `gauss a b`.  The sixteen blocks tile the
  result, hence after the run the result array is `gauss a b` everywhere.
-/
import proofs.«108575_j7327214207092_2_alg».proof.Proof.Gen.KernelIdeal.Value
import proofs.«108575_j7327214207092_2_alg».proof.Proof.KernelBody
import proofs.«108575_j7327214207092_2_alg».proof.Proof.HostNorms
import Idealize.ShloMosaic.Lib.Pipeline.Value
import Idealize.ShloMosaic.Lib.Tactic

set_option maxRecDepth 16384

noncomputable section

namespace Cert.Gaussian.Blocks

open Idealize.ShloMosaic Idealize.ShloMosaic.TcCoe Idealize.ShloMosaic.ValueIdx Idealize.SL.Sem
open Idealize.ShloMosaic.Pipeline (Dat)
open Cert.KernelIdeal Cert.KernelIdeal.Gen
open Cert.Gaussian.Body Cert.Gaussian.Norms
open scoped BigOperators

variable (m : (ℓ : Loc nD τ sig) → Buf (Elt Ideal) ℓ) (ρ : Dev nD → PrngReg)

/-- The body's accesses all start at the origin of their buffers. -/
theorem origin : (![0, 0] : Fin 2 → Nat) = fun _ => 0 := funext fun a => by fin_cases a <;> rfl

/-- The similarity matrix of the two argument arrays of core `c`. -/
abbrev result (c : Dev nD) : Gram :=
  gauss (m ((c : Thread nD τ).loc main_arg0)) (m ((c : Thread nD τ).loc main_arg1))

/-- Which block each window is on at a grid point, relative to the output's block `(I, J)`: the first family and
    the column follow `I`, the second family and the row follow `J`, every other block coordinate is `0`; and
    `I, J ≤ 3`.  Decided over the sixteen points. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every block `(I, J)` of the result is some point's. -/
theorem block_onto : ∀ (I J : Fin 4), ∃ t : Fin cfg0.N, win0_4.index t = ![I.val, J.val] :=
  (by decide +kernel : ∀ (I J : Fin 4), ∃ t : Fin grid0.N, win0_4.index t = ![I.val, J.val])

/-! ## The four input blocks at a point, read in the argument arrays -/

/-- Local point `p` of the first family's block is point `2048·I + p` of the first argument. -/
theorem first_apply (c : Dev nD) (t : Fin cfg0.N) (p : Fin 2048) (k : Fin 64) (r : Fin 8192)
    (hr : r.val = win0_4.index t (0 : Fin 2) * 2048 + p.val) :
    (iblk m c 0 t : Vec Ideal S2048x64 .f32) (ix2 p k) = (m ((c : Thread nD τ).loc main_arg0) : Points) (ix2 r k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 64 + 1 * k.val = k.val; rw [e1]; omega

/-- Local point `q` of the second family's block is point `2048·J + q` of the second argument. -/
theorem second_apply (c : Dev nD) (t : Fin cfg0.N) (q : Fin 2048) (k : Fin 64) (s : Fin 8192)
    (hs : s.val = win0_4.index t (1 : Fin 2) * 2048 + q.val) :
    (iblk m c 1 t : Vec Ideal S2048x64 .f32) (ix2 q k) = (m ((c : Thread nD τ).loc main_arg1) : Points) (ix2 s k) := by
  obtain ⟨-, -, e0, e1, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * q.val = s.val; rw [e0, hs]; omega
  | ⟨1, _⟩ => show win0_1.index t (1 : Fin 2) * 64 + 1 * k.val = k.val; rw [e1]; omega

/-- Entry `p` of the column block is the squared length of point `2048·I + p` of the first argument. -/
theorem column_apply (c : Dev nD) (t : Fin cfg0.N) (p : Fin 2048) (r : Fin 8192)
    (hr : r.val = win0_4.index t (0 : Fin 2) * 2048 + p.val) :
    (iblk m c 2 t : Vec Ideal S2048x1 .f32) (ix2 p (0 : Fin 1)) = sqLen (m ((c : Thread nD τ).loc main_arg0)) r := by
  obtain ⟨-, -, -, -, e0, e1, -⟩ := block_indices t
  rw [← sqCol_apply m c r]
  unfold iblk
  rw [View.read_apply]
  show (V m c main_v2 : S8192x1.Idx → EReal) _ = _
  refine congrArg _ (funext fun a => Fin.ext ?_)
  match a with
  | ⟨0, _⟩ => show win0_2.index t (0 : Fin 2) * 2048 + 1 * p.val = r.val; rw [e0, hr]; omega
  | ⟨1, _⟩ => show win0_2.index t (1 : Fin 2) * 1 + 1 * 0 = 0; rw [e1]

/-- Entry `q` of the row block is the squared length of point `2048·J + q` of the second argument. -/
theorem row_apply (c : Dev nD) (t : Fin cfg0.N) (q : Fin 2048) (s : Fin 8192)
    (hs : s.val = win0_4.index t (1 : Fin 2) * 2048 + q.val) :
    (iblk m c 3 t : Vec Ideal S1x2048 .f32) (ix2 (0 : Fin 1) q) = sqLen (m ((c : Thread nD τ).loc main_arg1)) s := by
  obtain ⟨-, -, -, -, -, -, e0, e1, -⟩ := block_indices t
  rw [← sqRow_apply m c s]
  unfold iblk
  rw [View.read_apply]
  show (V m c main_v6 : S1x8192.Idx → EReal) _ = _
  refine congrArg _ (funext fun a => Fin.ext ?_)
  match a with
  | ⟨0, _⟩ => show win0_3.index t (0 : Fin 2) * 1 + 1 * 0 = 0; rw [e0]
  | ⟨1, _⟩ => show win0_3.index t (1 : Fin 2) * 2048 + 1 * q.val = s.val; rw [e1, hs]; omega

/-! ## What a point writes back -/

/-- WHAT POINT `t` WRITES BACK is block `t` of the similarity matrix of the arguments. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin]
  simp only [View.ld_unit_zero (S := S2048x64) origin, View.ld_unit_zero (S := S2048x1) origin,
    View.ld_unit_zero (S := S1x2048) origin]
  funext j
  obtain ⟨p, q, rfl⟩ : ∃ (p q : Fin 2048), j = ix2 p q := ⟨j 0, j 1, eq_ix2 j⟩
  obtain ⟨-, -, -, -, -, -, -, -, b0, b1⟩ := block_indices t
  have hp : p.val < 2048 := p.isLt
  have hq : q.val < 2048 := q.isLt
  have hr : win0_4.index t (0 : Fin 2) * 2048 + p.val < 8192 := by omega
  have hs : win0_4.index t (1 : Fin 2) * 2048 + q.val < 8192 := by omega
  show k0_pay1 (F := Ideal) (iblk m c 0 t) (iblk m c 1 t) (iblk m c 2 t) (iblk m c 3 t) (ix2 p q)
    = result m c (((cfg0.win 4).blk t).view.emb (ix2 p q))
  have hi : ((cfg0.win 4).blk t).view.emb (ix2 p q) = ix2 (⟨_, hr⟩ : Fin 8192) (⟨_, hs⟩ : Fin 8192) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 2048 + 1 * q.val = win0_4.index t (1 : Fin 2) * 2048 + q.val; omega)
  rw [hi]
  exact entry_eq (iblk m c 0 t) (iblk m c 1 t) (iblk m c 2 t) (iblk m c 3 t) _ _ p q ⟨_, hr⟩ ⟨_, hs⟩
    (column_apply m c t p ⟨_, hr⟩ rfl) (row_apply m c t q ⟨_, hs⟩ rfl)
    (fun k => first_apply m c t p k ⟨_, hr⟩ rfl) (fun k => second_apply m c t q k ⟨_, hs⟩ rfl)

/-! ## The blocks tile the result -/

/-- An index of the result is in point `t`'s block iff each coordinate is in the block's range on its axis. -/
theorem mem_block (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v7).slice (win0_4.rect t)).set ↔ _
  rw [View.set_slice_whole, Rect.mem_set_unit]
  exact Iff.rfl

/-- Entry `(r, s)` lies in block `(r / 2048, s / 2048)`, which some point writes back. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 2048 ≤ (i 1).val ∧ (i 1).val < win0_4.index t (1 : Fin 2) * 2048 + 2048; omega

/-- THE RESULT ARRAY after the run is the similarity matrix of the arguments. -/
theorem final (c : Dev nD) : (dats m 0 c).arrAt 4 cfg0.N = result m c :=
  (dats m 0 c).arrAt_eq_of_cover 4 (result m c) (fun t _ => flushed_eq m c t) covered

/-- The kernel's run: the result at the similarity matrix of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Gaussian.Blocks

end
-- ==== Proof.lean ====
/-
  A tiled Gaussian-similarity kernel computes the same matrix as its whole-array reference, over the extended reals.

  Both programs take two families `a`, `b` of 8192 points with 64 coordinates and produce the 8192 × 8192 matrix

      S[i, j] = exp (-1 · ((|a_i|² + |b_j|²) - 2 · ⟨a_i, b_j⟩)),      |x|² = 0 + Σ_k x_k²,   ⟨x, y⟩ = Σ_k x_k y_k.

  The reference forms the three ingredients over whole arrays (the inner products as the matrix product of `a` with
  the transpose of `b`).  The kernel forms the squared lengths on the host as a column and a row, then runs a 4 × 4
  grid: point `(I, J)` multiplies rows `2048·I …` of `a` against rows `2048·J …` of `b` on the matrix unit
  (contracting both over their last axis, into a zero accumulator), adds the matching pieces of the column and the
  row, and writes block `(I, J)` of `S`.  At the ideal values the matrix unit's product is the plain sum of 64
  products, so each written block is a block of the one matrix `Cert.Gaussian.gauss a b`, the sixteen blocks tile
  the result, and the reference's composed operations read at an index are the same expression.  The sums are taken
  in the same order and grouping on both sides and no algebraic identity is used, so the finiteness of the inputs is
  never needed.

  Modules: `GaussianSpec` (the matrix, index by index), `ReferenceValue` (the reference is it), `KernelBody` (what
  one grid point stores, entry by entry), `HostNorms` (the column and row of squared lengths), `Blocks` (each
  written block is a block of the matrix; the blocks tile it; the kernel's run), and the claims below.
-/
import proofs.«108575_j7327214207092_2_alg».proof.Defs
import proofs.«108575_j7327214207092_2_alg».proof.Proof.Gen.Kernel
import proofs.«108575_j7327214207092_2_alg».proof.Proof.Gen.Kernel.Skeleton
import proofs.«108575_j7327214207092_2_alg».proof.Proof.Gen.Kernel.Launch
import proofs.«108575_j7327214207092_2_alg».proof.Proof.Gen.Kernel.Points
import proofs.«108575_j7327214207092_2_alg».proof.Proof.Gen.Kernel.Frame
import proofs.«108575_j7327214207092_2_alg».proof.Proof.Gen.KernelIdeal
import proofs.«108575_j7327214207092_2_alg».proof.Proof.Gen.KernelIdeal.Skeleton
import proofs.«108575_j7327214207092_2_alg».proof.Proof.Gen.KernelIdeal.Launch
import proofs.«108575_j7327214207092_2_alg».proof.Proof.Gen.KernelIdeal.Points
import proofs.«108575_j7327214207092_2_alg».proof.Proof.Gen.KernelIdeal.Frame
import proofs.«108575_j7327214207092_2_alg».proof.Proof.Gen.ReferenceIdeal
import proofs.«108575_j7327214207092_2_alg».proof.Proof.Gen.Pre_finite_inputs
import proofs.«108575_j7327214207092_2_alg».proof.Proof.Gen.KernelIdeal.Value
import proofs.«108575_j7327214207092_2_alg».proof.Proof.Gen.ReferenceIdeal.Run
import proofs.«108575_j7327214207092_2_alg».proof.Proof.Gen.ReferenceIdeal.Read
import proofs.«108575_j7327214207092_2_alg».proof.Proof.ReferenceValue
import proofs.«108575_j7327214207092_2_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `a` and `b`, both programs end with the similarity matrix `gauss a b`: the kernel
    block by block (`Blocks.run`), the reference operation by operation (`Reference.result_eq`). -/
theorem algebraic : Cert.algebraic_KernelIdeal_ReferenceIdeal := by
  intro m ρ m' ρ' _ hagree
  refine ⟨_, Cert.Gaussian.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Gaussian.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
